-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048x6 : Shape := ⟨3, ![1024, 2048, 6]⟩
abbrev S2048x64 : Shape := ⟨2, ![2048, 64]⟩
abbrev S_ : Shape := ⟨0, ![]⟩

class Facts : Prop where
  bcast_S_S1024x2048x6 : S_.BroadcastsInDim S1024x2048x6 (![] : Fin 0 → Fin S1024x2048x6.rank)
  reducesTo_S1024x2048x6_S_d0_1_2 : S1024x2048x6.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S1024x2048x6 .f32) (main_arg1 : FVec F S2048x64 .f32) : IVec S_ 1 :=
  let main_v0 : FVec F S1024x2048x6 .f32 := Host.absf main_arg0
  let main_cst : FVec F S_ .f32 := constant S_ .f32 0x7F800000#32
  let main_v1 : FVec F S1024x2048x6 .f32 := broadcastInDim S1024x2048x6 ![] bcast_S_S1024x2048x6 main_cst
  let main_v2 : IVec S1024x2048x6 1 := cmpf .olt main_v0 main_v1
  let main_c : IVec S_ 1 := constantI S_ 1 1#1
  let main_v3 : IVec S_ 1 := (fun x v => Host.reduce IntOp.andi x v reducesTo_S1024x2048x6_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S1024x2048x6 : Shape := ⟨3, ![1024, 2048, 6]⟩
abbrev S2048x64 : Shape := ⟨2, ![2048, 64]⟩
abbrev S12x64 : Shape := ⟨2, ![12, 64]⟩
abbrev S1024x2048 : Shape := ⟨2, ![1024, 2048]⟩
abbrev S64x128x6 : Shape := ⟨3, ![64, 128, 6]⟩
abbrev S128x64 : Shape := ⟨2, ![128, 64]⟩
abbrev S64x128 : Shape := ⟨2, ![64, 128]⟩
abbrev S64x128x12 : Shape := ⟨3, ![64, 128, 12]⟩
abbrev S8192x12 : Shape := ⟨2, ![8192, 12]⟩
abbrev S8192x64 : Shape := ⟨2, ![8192, 64]⟩
abbrev S64x128x64 : Shape := ⟨3, ![64, 128, 64]⟩
abbrev S1x128x64 : Shape := ⟨3, ![1, 128, 64]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048x6, .f32⟩
  | .hbm, ⟨1, _⟩ => ⟨S2048x64, .f32⟩
  | .hbm, ⟨2, _⟩ => ⟨S12x64, .f32⟩
  | .hbm, ⟨3, _⟩ => ⟨S1024x2048, .f32⟩
  | .local _ .vmem, ⟨0, _⟩ => ⟨S64x128x6, .f32⟩
  | .local _ .vmem, ⟨1, _⟩ => ⟨S64x128x6, .f32⟩
  | .local _ .vmem, ⟨2, _⟩ => ⟨S128x64, .f32⟩
  | .local _ .vmem, ⟨3, _⟩ => ⟨S128x64, .f32⟩
  | .local _ .vmem, ⟨4, _⟩ => ⟨S12x64, .f32⟩
  | .local _ .vmem, ⟨5, _⟩ => ⟨S64x128, .f32⟩
  | .local _ .vmem, ⟨6, _⟩ => ⟨S64x128, .f32⟩
  | _, _ => ⟨S1024x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S64x128x6_S64x128x6_0_0_0 : ∀ a, (![0, 0, 0] : Fin 3 → Nat) a + S64x128x6.size a ≤ S64x128x6.size a
  h_S64x128x6 : 0 < S64x128x6.numel
  concatenates_S64x128x6_S64x128x6_S64x128x12_d2 : Shape.Concatenates [S64x128x6, S64x128x6] S64x128x12 2
  shapeCasts_S64x128x12_S8192x12 : S64x128x12.ShapeCasts S8192x12
  inb_S12x64_S12x64_0_0 : ∀ a, (![0, 0] : Fin 2 → Nat) a + S12x64.size a ≤ S12x64.size a
  h_S12x64 : 0 < S12x64.numel
  shapeCasts_S8192x64_S64x128x64 : S8192x64.ShapeCasts S64x128x64
  inb_S128x64_S128x64_0_0 : ∀ a, (![0, 0] : Fin 2 → Nat) a + S128x64.size a ≤ S128x64.size a
  h_S128x64 : 0 < S128x64.numel
  shapeCasts_S128x64_S1x128x64 : S128x64.ShapeCasts S1x128x64
  shapeCasts_S1x128x64_S1x128x64 : S1x128x64.ShapeCasts S1x128x64
  broadcasts_S1x128x64_S64x128x64 : S1x128x64.Broadcasts S64x128x64
  reduces_S64x128x64_S64x128 : S64x128x64.Reduces [2] S64x128
  inb_S64x128_S64x128_0_0 : ∀ a, (![0, 0] : Fin 2 → Nat) a + S64x128.size a ≤ S64x128.size a
  h_S64x128 : 0 < S64x128.numel
  dot_S8192x12_S12x64_S8192x64_1_0_0_1_n_n_wf : DotDims.WF S8192x12 S12x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x6.size a ≤ S1024x2048x6.size a
  hwx0_0 : ∀ i : grid0.Coords, EltTy.bits .f32 = 32 ∨ (Rect.block (s := S1024x2048x6) S64x128x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S1024x2048.size a
  hwx0_3 : ∀ i : grid0.Coords, EltTy.bits .f32 = 32 ∨ (Rect.block (s := S1024x2048) S64x128.size (cc0_transform_3 i) (hinb0_3 i)).WholeWords (EltTy.packing .f32)

variable [Facts₀]

def dot_S8192x12_S12x64_S8192x64_1_0_0_1_n_n : DotDims S8192x12 S12x64 S8192x64 where
  lhsContracting := [1]
  rhsContracting := [0]
  lhsNonContracting := [0]
  rhsNonContracting := [1]
  lhsBatch := []
  rhsBatch := []
  wf := dot_S8192x12_S12x64_S8192x64_1_0_0_1_n_n_wf

abbrev win0_0 : Pipeline.Window sig grid0 :=
  Pipeline.Window.ofSpec (Memref.whole main_arg0) S64x128x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048x6 : Shape := ⟨3, ![1024, 2048, 6]⟩
abbrev S2048x64 : Shape := ⟨2, ![2048, 64]⟩
abbrev S12x64 : Shape := ⟨2, ![12, 64]⟩
abbrev S_ : Shape := ⟨0, ![]⟩
abbrev S1024x2048x12 : Shape := ⟨3, ![1024, 2048, 12]⟩
abbrev S1024x2048x64 : Shape := ⟨3, ![1024, 2048, 64]⟩
abbrev S1x2048x64 : Shape := ⟨3, ![1, 2048, 64]⟩
abbrev S1024x2048 : Shape := ⟨2, ![1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1024x2048x6, .f32⟩
  | .hbm, ⟨1, _⟩ => ⟨S2048x64, .f32⟩
  | .hbm, ⟨2, _⟩ => ⟨S12x64, .f32⟩
  | .hbm, ⟨3, _⟩ => ⟨S_, .f32⟩
  | .hbm, ⟨4, _⟩ => ⟨S1024x2048x6, .f32⟩
  | .hbm, ⟨5, _⟩ => ⟨S1024x2048x6, .f32⟩
  | .hbm, ⟨6, _⟩ => ⟨S1024x2048x12, .f32⟩
  | .hbm, ⟨7, _⟩ => ⟨S_, .f32⟩
  | .hbm, ⟨8, _⟩ => ⟨S1024x2048x12, .f32⟩
  | .hbm, ⟨9, _⟩ => ⟨S1024x2048x12, .f32⟩
  | .hbm, ⟨10, _⟩ => ⟨S_, .f32⟩
  | .hbm, ⟨11, _⟩ => ⟨S1024x2048x12, .f32⟩
  | .hbm, ⟨12, _⟩ => ⟨S1024x2048x12, .f32⟩
  | .hbm, ⟨13, _⟩ => ⟨S1024x2048x12, .f32⟩
  | .hbm, ⟨14, _⟩ => ⟨S1024x2048x64, .f32⟩
  | .hbm, ⟨15, _⟩ => ⟨S1024x2048x64, .f32⟩
  | .hbm, ⟨16, _⟩ => ⟨S2048x64, .f32⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x64, .f32⟩
  | .hbm, ⟨21, _⟩ => ⟨S_, .f32⟩
  | .hbm, ⟨22, _⟩ => ⟨S2048x64, .f32⟩
  | .hbm, ⟨23, _⟩ => ⟨S2048x64, .f32⟩
  | .hbm, ⟨24, _⟩ => ⟨S1x2048x64, .f32⟩
  | .hbm, ⟨25, _⟩ => ⟨S1024x2048x64, .f32⟩
  | .hbm, ⟨26, _⟩ => ⟨S1024x2048x64, .f32⟩
  | .hbm, ⟨27, _⟩ => ⟨S_, .f32⟩
  | .hbm, ⟨28, _⟩ => ⟨S1024x2048, .f32⟩
  | _, _ => ⟨S1024x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S1024x2048x6 : S_.BroadcastsInDim S1024x2048x6 (![] : Fin 0 → Fin S1024x2048x6.rank)
  concatenates_S1024x2048x6_S1024x2048x6_S1024x2048x12_d2 : Shape.Concatenates [S1024x2048x6, S1024x2048x6] S1024x2048x12 2
  bcast_S_S1024x2048x12 : S_.BroadcastsInDim S1024x2048x12 (![] : Fin 0 → Fin S1024x2048x12.rank)
  bcast_S_S2048x64 : S_.BroadcastsInDim S2048x64 (![] : Fin 0 → Fin S2048x64.rank)
  bcast_S2048x64_S1x2048x64_1_2 : S2048x64.BroadcastsInDim S1x2048x64 (![1, 2] : Fin 2 → Fin S1x2048x64.rank)
  bcast_S1x2048x64_S1024x2048x64_0_1_2 : S1x2048x64.BroadcastsInDim S1024x2048x64 (![0, 1, 2] : Fin 3 → Fin S1024x2048x64.rank)
  reducesTo_S1024x2048x64_S1024x2048_d2 : S1024x2048x64.ReducesTo [2] S1024x2048
  h_S_ : 0 < S_.numel
  dot_S1024x2048x12_S12x64_S1024x2048x64_2_0_01_1_n_n_wf : DotDims.WF S1024x2048x12 S12x64 S1024x2048x64 [2] [0] [0, 1] [1] [] []

variable [Facts₀]

def dot_S1024x2048x12_S12x64_S1024x2048x64_2_0_01_1_n_n : DotDims S1024x2048x12 S12x64 S1024x2048x64 where
  lhsContracting := [2]
  rhsContracting := [0]
  lhsNonContracting := [0, 1]
  rhsNonContracting := [1]
  lhsBatch := []
  rhsBatch := []
  wf := dot_S1024x2048x12_S12x64_S1024x2048x64_2_0_01_1_n_n_wf

class Facts : Prop extends Facts₀ where

variable [Facts]
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.LibIndex.lean ====
/-
  Layout operations read at an index built from coordinates: a column or a one-entry-per-row array as a vector, an
  entry cut out of every row's small matrix, a trailing unit axis added, two arrays with a trailing unit axis joined
  along it, and the reshapes that merge two leading axes into one (row n = b1 * B + b2) or split them again.
-/
import Idealize.ShloMosaic.Lib.Pipeline.Value
import Idealize.ShloMosaic.Lib.ValueIdx

namespace Cert.Layout

open Idealize.ShloMosaic Idealize.ShloMosaic.ValueIdx

variable {α : Type}

/-- An `[a, 1]` column cast to the vector `[a]` reads, at `p`, the column's entry of row `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a, 1, 1]` array cast to the vector `[a]` reads, at `p`, the one entry of row `p`. -/
theorem shapeCast_a11_a_apply {a : ℕ} (x : (⟨3, ![a, 1, 1]⟩ : Shape).Idx → α)
    (h : (⟨3, ![a, 1, 1]⟩ : Shape).ShapeCasts ⟨1, ![a]⟩) (p : Fin a) :
    shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- One entry `(k1, k2)` cut out of every row's `[m, n]` matrix: the `[a, 1, 1]` slice at offsets `(0, k1, k2)`
    reads, at row `p`, the source at `(p, k1, k2)`. -/
theorem slice3_entry_apply {a m n : ℕ} (o1 o2 : ℕ) (X : (⟨3, ![a, m, n]⟩ : Shape).Idx → α)
    (h : (⟨3, ![a, m, n]⟩ : Shape).Slices ![0, o1, o2] ⟨3, ![a, 1, 1]⟩)
    (p : Fin a) (u v : Fin 1) (k1 : Fin m) (k2 : Fin n) (h1 : k1.val = o1) (h2 : k2.val = o2) :
    extractStridedSlice ⟨3, ![a, 1, 1]⟩ ![0, o1, o2] X h (ix3 p u v) = X (ix3 p k1 k2) :=
  extractStridedSlice_apply _ _ _ _ _ (fun ax => by
    match ax with
    | ⟨0, _⟩ => exact (Nat.zero_add _).symm
    | ⟨1, _⟩ => show k1.val = o1 + u.val; omega
    | ⟨2, _⟩ => show k2.val = o2 + v.val; omega)

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- Two `[a, b, 1]` arrays joined along the last axis: entry `(p, q, 0)` is the first array's. -/
theorem concatenate_last_pair_apply_zero {a b : ℕ} (x₁ x₂ : (⟨3, ![a, b, 1]⟩ : Shape).Idx → α)
    (h : Shape.Concatenates [(⟨3, ![a, b, 1]⟩ : Shape), (⟨3, ![a, b, 1]⟩ : Shape)] (⟨3, ![a, b, 2]⟩ : Shape) 2)
    (p : Fin a) (q : Fin b) :
    concatenate (⟨3, ![a, b, 2]⟩ : Shape) 2 [⟨(⟨3, ![a, b, 1]⟩ : Shape), x₁⟩, ⟨(⟨3, ![a, b, 1]⟩ : Shape), x₂⟩] h (ix3 p q (0 : Fin 2))
      = x₁ (ix3 p q (0 : Fin 1)) :=
  concatenate_pair_apply_left 2 x₁ x₂ h _ rfl _ (fun ax => by
    match ax with
    | ⟨0, _⟩ => rfl
    | ⟨1, _⟩ => rfl
    | ⟨2, _⟩ => rfl)

/-- Two `[a, b, 1]` arrays joined along the last axis: entry `(p, q, 1)` is the second array's. -/
theorem concatenate_last_pair_apply_one {a b : ℕ} (x₁ x₂ : (⟨3, ![a, b, 1]⟩ : Shape).Idx → α)
    (h : Shape.Concatenates [(⟨3, ![a, b, 1]⟩ : Shape), (⟨3, ![a, b, 1]⟩ : Shape)] (⟨3, ![a, b, 2]⟩ : Shape) 2)
    (p : Fin a) (q : Fin b) :
    concatenate (⟨3, ![a, b, 2]⟩ : Shape) 2 [⟨(⟨3, ![a, b, 1]⟩ : Shape), x₁⟩, ⟨(⟨3, ![a, b, 1]⟩ : Shape), x₂⟩] h (ix3 p q (1 : Fin 2))
      = x₂ (ix3 p q (0 : Fin 1)) :=
  concatenate_pair_apply_right 2 x₁ x₂ h _ rfl rfl _ (fun ax hax => by
    match ax, hax with
    | ⟨0, _⟩, _ => rfl
    | ⟨1, _⟩, _ => rfl
    | ⟨2, _⟩, hax => exact absurd rfl hax) rfl

/-! ## Two leading axes merged into one, and split again -/

/-- `[A, B, c]` reshaped to `[N, c]`: row `n = b1 * B + b2` is the operand's `(b1, b2)`. -/
theorem shapeCast_merge3_apply {A B c N : ℕ} (x : (⟨3, ![A, B, c]⟩ : Shape).Idx → α)
    (h : (⟨3, ![A, B, c]⟩ : Shape).ShapeCasts ⟨2, ![N, c]⟩) (n : Fin N) (b1 : Fin A) (b2 : Fin B) (e : Fin c)
    (hn : n.val = b1.val * B + b2.val) :
    shapeCast ⟨2, ![N, c]⟩ x h (ix2 n e) = x (ix3 b1 b2 e) :=
  shapeCast_apply x h _ _ (by
    rw [Shape.rowMajor_val_three, Shape.rowMajor_val_two]
    show (b1.val * B + b2.val) * c + e.val = n.val * c + e.val
    rw [hn])

/-- `[A, B, c, d]` reshaped to `[N, c, d]`: row `n = b1 * B + b2` is the operand's `(b1, b2)`. -/
theorem shapeCast_merge4_apply {A B c d N : ℕ} (x : (⟨4, ![A, B, c, d]⟩ : Shape).Idx → α)
    (h : (⟨4, ![A, B, c, d]⟩ : Shape).ShapeCasts ⟨3, ![N, c, d]⟩) (n : Fin N) (b1 : Fin A) (b2 : Fin B) (e : Fin c) (f : Fin d)
    (hn : n.val = b1.val * B + b2.val) :
    shapeCast ⟨3, ![N, c, d]⟩ x h (ix3 n e f) = x (ix4 b1 b2 e f) :=
  shapeCast_apply x h _ _ (by
    rw [Shape.rowMajor_val_four, Shape.rowMajor_val_three]
    show ((b1.val * B + b2.val) * c + e.val) * d + f.val = (n.val * c + e.val) * d + f.val
    rw [hn])

/-- `[N, c, d]` reshaped to `[A, B, c, d]`: entry `(b1, b2)` is the operand's row `n = b1 * B + b2`. -/
theorem shapeCast_split3_apply {A B c d N : ℕ} (x : (⟨3, ![N, c, d]⟩ : Shape).Idx → α)
    (h : (⟨3, ![N, c, d]⟩ : Shape).ShapeCasts ⟨4, ![A, B, c, d]⟩) (n : Fin N) (b1 : Fin A) (b2 : Fin B) (e : Fin c) (f : Fin d)
    (hn : n.val = b1.val * B + b2.val) :
    shapeCast ⟨4, ![A, B, c, d]⟩ x h (ix4 b1 b2 e f) = x (ix3 n e f) :=
  shapeCast_apply x h _ _ (by
    rw [Shape.rowMajor_val_four, Shape.rowMajor_val_three]
    show (n.val * c + e.val) * d + f.val = ((b1.val * B + b2.val) * c + e.val) * d + f.val
    rw [hn])

/-- An `[N, 1]` column reshaped to `[A, B]`: entry `(b1, b2)` is the column's row `n = b1 * B + b2`. -/
theorem shapeCast_split_col_apply {A B N : ℕ} (x : (⟨2, ![N, 1]⟩ : Shape).Idx → α)
    (h : (⟨2, ![N, 1]⟩ : Shape).ShapeCasts ⟨2, ![A, B]⟩) (n : Fin N) (b1 : Fin A) (b2 : Fin B)
    (hn : n.val = b1.val * B + b2.val) :
    shapeCast ⟨2, ![A, B]⟩ x h (ix2 b1 b2) = x (ix2 n (0 : Fin 1)) :=
  shapeCast_apply x h _ _ (by
    rw [Shape.rowMajor_val_two, Shape.rowMajor_val_two]
    show n.val * 1 + 0 = b1.val * B + b2.val
    rw [hn, Nat.mul_one, Nat.add_zero])

end Cert.Layout
-- ==== Proof.LibRank3.lean ====
/-
  Operations on arrays with three axes read at an index built from coordinates.  Layout: two arrays [a, b, c₁] and
  [a, b, c₂] joined along the last axis; a matrix [N, c] split into [A, B, c] (row n = b1 * B + b2); one slab [1, b, c]
  repeated along a new leading extent [a, b, c], by a vector broadcast and by the host's broadcast_in_dim; a matrix
  [b, c] given a leading unit axis by broadcast_in_dim.  Arithmetic, at the
  ideal values (extended reals, exact operations): the sum along the last axis of an [a, b, k] array, in a kernel
  (from the float zero word) and on the host (from a scalar initial value); and the host's product of an [A, B, k]
  array with a [k, n] matrix contracting the last axis with the first, whose entry at (a, b, t) is
  Σ_c L[a, b, c] · R[c, t].
-/
import Idealize.ShloMosaic.Lib.Pipeline.Value
import Idealize.ShloMosaic.Lib.ValueIdx
import Idealize.ShloMosaic.PureOps.Ideal.Laws

namespace Cert.Rank3

open Idealize.ShloMosaic Idealize.ShloMosaic.ValueIdx

variable {α : Type}

/-! ## Layout -/

/-- [a, b, c₁] ++ [a, b, c₂] along the last axis, at (p, q, j') with j' a position of the first piece: the first
    array at (p, q, j'). -/
theorem concatenate_last_apply_left {a b c₁ c₂ c : ℕ} (x₁ : (⟨3, ![a, b, c₁]⟩ : Shape).Idx → α)
    (x₂ : (⟨3, ![a, b, c₂]⟩ : Shape).Idx → α)
    (h : Shape.Concatenates [⟨3, ![a, b, c₁]⟩, ⟨3, ![a, b, c₂]⟩] ⟨3, ![a, b, c]⟩ (2 : Fin 3))
    (p : Fin a) (q : Fin b) (j : Fin c₁) (j' : Fin c) (hj : j'.val = j.val) :
    concatenate ⟨3, ![a, b, c]⟩ (2 : Fin 3) [⟨⟨3, ![a, b, c₁]⟩, x₁⟩, ⟨⟨3, ![a, b, c₂]⟩, x₂⟩] h (ix3 p q j')
      = x₁ (ix3 p q j) := by
  refine concatenate_pair_apply_left (2 : Fin 3) x₁ x₂ h (ix3 p q j') rfl (ix3 p q j) fun ax => ?_
  match ax with
  | ⟨0, _⟩ => rfl
  | ⟨1, _⟩ => rfl
  | ⟨2, _⟩ => exact hj.symm

/-- The same at a position of the second piece: the second array at (p, q, j) when j' = c₁ + j. -/
theorem concatenate_last_apply_right {a b c₁ c₂ c : ℕ} (x₁ : (⟨3, ![a, b, c₁]⟩ : Shape).Idx → α)
    (x₂ : (⟨3, ![a, b, c₂]⟩ : Shape).Idx → α)
    (h : Shape.Concatenates [⟨3, ![a, b, c₁]⟩, ⟨3, ![a, b, c₂]⟩] ⟨3, ![a, b, c]⟩ (2 : Fin 3))
    (p : Fin a) (q : Fin b) (j : Fin c₂) (j' : Fin c) (hj : j'.val = c₁ + j.val) :
    concatenate ⟨3, ![a, b, c]⟩ (2 : Fin 3) [⟨⟨3, ![a, b, c₁]⟩, x₁⟩, ⟨⟨3, ![a, b, c₂]⟩, x₂⟩] h (ix3 p q j')
      = x₂ (ix3 p q j) := by
  refine concatenate_pair_apply_right (2 : Fin 3) x₁ x₂ h (ix3 p q j') rfl rfl (ix3 p q j) (fun ax hax => ?_) ?_
  · match ax with
    | ⟨0, _⟩ => rfl
    | ⟨1, _⟩ => rfl
    | ⟨2, _⟩ => exact absurd rfl hax
  · show j.val + c₁ = j'.val
    omega

/-- [N, c] reshaped to [A, B, c]: entry (b1, b2, e) is the operand's row n = b1 * B + b2 at e. -/
theorem shapeCast_split2_apply {A B c N : ℕ} (x : (⟨2, ![N, c]⟩ : Shape).Idx → α)
    (h : (⟨2, ![N, c]⟩ : Shape).ShapeCasts ⟨3, ![A, B, c]⟩) (n : Fin N) (b1 : Fin A) (b2 : Fin B) (e : Fin c)
    (hn : n.val = b1.val * B + b2.val) :
    shapeCast ⟨3, ![A, B, c]⟩ x h (ix3 b1 b2 e) = x (ix2 n e) :=
  shapeCast_apply x h _ _ (by
    rw [Shape.rowMajor_val_three, Shape.rowMajor_val_two]
    show n.val * c + e.val = (b1.val * B + b2.val) * c + e.val
    rw [hn])

/-- One slab [1, b, c] repeated to [a, b, c] by a vector broadcast: at (p, q, e) the slab at (0, q, e). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- The same by the host's broadcast_in_dim along all three axes. -/
theorem broadcastInDim_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin 3))
    (p : Fin a) (q : Fin b) (e : Fin c) :
    broadcastInDim ⟨3, ![a, b, c]⟩ (![0, 1, 2] : Fin 3 → Fin 3) h v (ix3 p q e) = v (ix3 (0 : Fin 1) q e) := by
  refine broadcastInDim_apply (![0, 1, 2] : Fin 3 → Fin 3) h v (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- A matrix [b, c] given a leading unit axis by broadcast_in_dim (its axes sent to axes 1 and 2): at (u, q, e) the
    matrix at (q, e). -/
theorem broadcastInDim_bc_1bc_apply {b c : ℕ} (v : (⟨2, ![b, c]⟩ : Shape).Idx → α)
    (h : (⟨2, ![b, c]⟩ : Shape).BroadcastsInDim ⟨3, ![1, b, c]⟩ (![1, 2] : Fin 2 → Fin 3))
    (u : Fin 1) (q : Fin b) (e : Fin c) :
    broadcastInDim ⟨3, ![1, b, c]⟩ (![1, 2] : Fin 2 → Fin 3) h v (ix3 u q e) = v (ix2 q e) := by
  refine broadcastInDim_apply (![1, 2] : Fin 2 → Fin 3) h v (ix3 u q e) (ix2 q e) fun ax => ?_
  match ax with
  | ⟨0, _⟩ =>
    show q.val = if b = 1 then 0 else q.val
    split
    · have := q.isLt; omega
    · rfl
  | ⟨1, _⟩ =>
    show e.val = if c = 1 then 0 else e.val
    split
    · have := e.isLt; omega
    · rfl

/-! ## Sums along the last axis, at the ideal values -/

/-- The in-kernel sum along the last axis of an [a, b, k] array from the float zero word, at (p, q):
    Σ_d src (p, q, d).  The accumulator's proof is typed as a printed program carries it (0 = 0 on the words). -/
theorem laneSum3_apply {a b k : ℕ} (src : FVec Ideal ⟨3, ![a, b, k]⟩ .f32)
    (h : (⟨3, ![a, b, k]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ d : Fin k, src (ix3 p q d) := by
  refine (Ideal.multiReduction_add_single src 0x00000000#32 h hφ hacc (ix2 p q)).trans ?_
  exact Finset.sum_congr rfl fun d _ => congrArg src (funext fun ax => by
    match ax with
    | ⟨0, _⟩ => rfl
    | ⟨1, _⟩ => rfl
    | ⟨2, _⟩ => rfl)

/-- The host's sum along the last axis of an [a, b, k] array from a scalar initial value, at (p, q):
    the initial value plus Σ_d x (p, q, d). -/
theorem hostLaneSum3_apply {a b k : ℕ} (x : FVec Ideal ⟨3, ![a, b, k]⟩ .f32) (init : (⟨0, ![]⟩ : Shape).Idx → Ideal .f32)
    (h' : (⟨3, ![a, b, k]⟩ : Shape).ReducesTo [2] ⟨2, ![a, b]⟩) (hu : 0 < (⟨0, ![]⟩ : Shape).numel)
    (h : (⟨3, ![a, b, k]⟩ : Shape).Reduces [2] ⟨2, ![a, b]⟩) (p : Fin a) (q : Fin b) :
    Host.reduceAdd x init h' hu (ix2 p q) = init (Shape.Idx.first hu) + ∑ d : Fin k, x (ix3 p q d) := by
  refine (Ideal.hostReduceAdd_single h' h x (init (Shape.Idx.first hu)) (ix2 p q)).trans ?_
  exact congrArg (init (Shape.Idx.first hu) + ·) (Finset.sum_congr rfl fun d _ => congrArg x (funext fun ax => by
    match ax with
    | ⟨0, _⟩ => rfl
    | ⟨1, _⟩ => rfl
    | ⟨2, _⟩ => rfl))

/-! ## A stack of rows times a matrix, at the ideal values -/

variable {A B k n : ℕ}

/-- In the product of an [A, B, k] array with a [k, n] matrix contracting the array's last axis with the matrix's
    first, at output index (a, b, t) and contraction coordinate c the array is read at (a, b, c). -/
theorem lhsIdx_rows (w : DotDims.WF ⟨3, ![A, B, k]⟩ ⟨2, ![k, n]⟩ ⟨3, ![A, B, n]⟩ [2] [0] [0, 1] [1] [] [])
    (a : Fin A) (b : Fin B) (t : Fin n) (c : Fin k) :
    (⟨[2], [0], [0, 1], [1], [], [], w⟩ : DotDims ⟨3, ![A, B, k]⟩ ⟨2, ![k, n]⟩ ⟨3, ![A, B, n]⟩).lhsIdx (ix3 a b t)
      ((contrEquiv1 (⟨[2], [0], [0, 1], [1], [], [], w⟩ : DotDims ⟨3, ![A, B, k]⟩ ⟨2, ![k, n]⟩ ⟨3, ![A, B, n]⟩) k rfl rfl).symm c)
      = ix3 a b c := by
  have c2 := contrEquiv1_symm_val (⟨[2], [0], [0, 1], [1], [], [], w⟩ : DotDims ⟨3, ![A, B, k]⟩ ⟨2, ![k, n]⟩ ⟨3, ![A, B, n]⟩) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- … and the matrix at (c, t). -/
theorem rhsIdx_rows (w : DotDims.WF ⟨3, ![A, B, k]⟩ ⟨2, ![k, n]⟩ ⟨3, ![A, B, n]⟩ [2] [0] [0, 1] [1] [] [])
    (a : Fin A) (b : Fin B) (t : Fin n) (c : Fin k) :
    (⟨[2], [0], [0, 1], [1], [], [], w⟩ : DotDims ⟨3, ![A, B, k]⟩ ⟨2, ![k, n]⟩ ⟨3, ![A, B, n]⟩).rhsIdx (ix3 a b t)
      ((contrEquiv1 (⟨[2], [0], [0, 1], [1], [], [], w⟩ : DotDims ⟨3, ![A, B, k]⟩ ⟨2, ![k, n]⟩ ⟨3, ![A, B, n]⟩) k rfl rfl).symm c)
      = ix2 c t := by
  have c2 := contrEquiv1_symm_val (⟨[2], [0], [0, 1], [1], [], [], w⟩ : DotDims ⟨3, ![A, B, k]⟩ ⟨2, ![k, n]⟩ ⟨3, ![A, B, n]⟩) k rfl rfl c
  funext ax; apply Fin.ext
  match ax with
  | ⟨0, _⟩ => simp [DotDims.rhsIdx]; exact c2
  | ⟨1, _⟩ => simp [DotDims.rhsIdx]; rfl

/-- The host's dot_general of that product, at (a, b, t): Σ_c L[a, b, c] · R[c, t]. -/
theorem dotGeneral_rows_apply {φ₁ φ₂ : FTy}
    (w : DotDims.WF ⟨3, ![A, B, k]⟩ ⟨2, ![k, n]⟩ ⟨3, ![A, B, n]⟩ [2] [0] [0, 1] [1] [] [])
    (prec : Option ContractPrecision) (L : FVec Ideal ⟨3, ![A, B, k]⟩ φ₁) (R : FVec Ideal ⟨2, ![k, n]⟩ φ₂)
    (a : Fin A) (b : Fin B) (t : Fin n) :
    Host.dotGeneral (⟨[2], [0], [0, 1], [1], [], [], w⟩ : DotDims _ _ _) prec L R (ix3 a b t)
      = ∑ c : Fin k, L (ix3 a b c) * R (ix2 c t) := by
  show FloatOps.dotGeneral _ prec _ L R (ix3 a b t) = _
  rw [Ideal.dotGeneral_apply,
    ← Equiv.sum_comp (contrEquiv1 (⟨[2], [0], [0, 1], [1], [], [], w⟩ : DotDims ⟨3, ![A, B, k]⟩ ⟨2, ![k, n]⟩ ⟨3, ![A, B, n]⟩) k rfl rfl).symm]
  refine Finset.sum_congr rfl fun c _ => ?_
  rw [lhsIdx_rows w a b t c, rhsIdx_rows w a b t c]

end Cert.Rank3
-- ==== Proof.Spec.lean ====
/-
  The soft look-up-table layer as one function of its inputs.

  A cell (b, n) carries six probabilities x₀ … x₅.  Its twelve "soft literals" are 1 − x₀, …, 1 − x₅, x₀, …, x₅;
  each is clipped below at 0, shifted by a small ε and passed through the logarithm.  A fixed 12 × 64 selection
  table T of zeros and ones picks, for each of the 64 table entries t, the six literals whose logarithms are added;
  the exponential of that sum is the probability of entry t.  The cell's output is the sum over t of that
  probability times the logistic function of the cell column's table weight lut[n, t]:

      out[b, n] = Σ_t exp( Σ_k log( max(lit_k, 0) + ε ) · T[k, t] ) · logistic( lut[n, t] ).

  Everything is over the extended reals with exact operations; the constants 1, 0 and ε stay the float words the
  programs print, since both programs print the same words.
-/
import Idealize.ShloMosaic.Lib.ValueIdx
import Idealize.ShloMosaic.Lib.IdealHost
import Idealize.ShloMosaic.PureOps.Ideal

noncomputable section

namespace Cert.SoftLut

open Idealize.ShloMosaic Idealize.ShloMosaic.ValueIdx

/-- The twelve soft literals of six probabilities: positions 0 … 5 hold 1 − x_j, positions 6 … 11 hold x_j. -/
def lits (x : Fin 6 → EReal) (k : Fin 12) : EReal :=
  if h : k.val < 6 then Ideal.ofBits .f32 0x3F800000#32 - x ⟨k.val, h⟩ else x ⟨k.val - 6, by omega⟩

/-- One cell's output from its six probabilities x, its column's 64 table weights l and the selection table T. -/
def entry (x : Fin 6 → EReal) (l : Fin 64 → EReal) (T : Fin 12 → Fin 64 → EReal) : EReal :=
  ∑ t : Fin 64, Ideal.exp (∑ k : Fin 12,
      Ideal.log (max (lits x k) (Ideal.ofBits .f32 0x00000000#32) + Ideal.ofBits .f32 0x33D6BF95#32) * T k t)
    * Ideal.logistic (l t)

/-- The whole output array: cell (b, n) from row (b, n, ·) of the inputs, row (n, ·) of the weights and the table. -/
def out (X : (⟨3, ![1024, 2048, 6]⟩ : Shape).Idx → EReal) (W : (⟨2, ![2048, 64]⟩ : Shape).Idx → EReal)
    (T : (⟨2, ![12, 64]⟩ : Shape).Idx → EReal) : (⟨2, ![1024, 2048]⟩ : Shape).Idx → EReal :=
  fun i => entry (fun d => X (ix3 (i 0) (i 1) d)) (fun t => W (ix2 (i 1) t)) (fun k t => T (ix2 k t))

theorem out_apply (X : (⟨3, ![1024, 2048, 6]⟩ : Shape).Idx → EReal) (W : (⟨2, ![2048, 64]⟩ : Shape).Idx → EReal)
    (T : (⟨2, ![12, 64]⟩ : Shape).Idx → EReal) (b : Fin 1024) (n : Fin 2048) :
    out X W T (ix2 b n) = entry (fun d => X (ix3 b n d)) (fun t => W (ix2 n t)) (fun k t => T (ix2 k t)) := rfl

/-- jax's expansion of the logistic function on the host, 1 / (1 + e^(−x)) with the float word of one, is the
    logistic function. -/
theorem host_logistic (x : EReal) :
    Ideal.div (Ideal.ofBits .f32 0x3F800000#32) (Ideal.ofBits .f32 0x3F800000#32 + Ideal.exp (-x)) = Ideal.logistic x := by
  rw [Ideal.ofBits_one_f32]; rfl

/-- Adding onto the float zero word adds nothing. -/
theorem zero_word_add (s : EReal) : Ideal.ofBits .f32 0x00000000#32 + s = s := by
  rw [Ideal.ofBits_zero_f32, zero_add]

theorem mul_congr {a a' b b' : EReal} (ha : a = a') (hb : b = b') : a * b = a' * b' := by rw [ha, hb]
theorem add_congr {a a' b b' : EReal} (ha : a = a') (hb : b = b') : a + b = a' + b' := by rw [ha, hb]
theorem sub_congr {a a' b b' : EReal} (ha : a = a') (hb : b = b') : a - b = a' - b' := by rw [ha, hb]
theorem max_congr {a a' b b' : EReal} (ha : a = a') (hb : b = b') : max a b = max a' b' := by rw [ha, hb]

end Cert.SoftLut

end
-- ==== Proof.KernelPayload.lean ====
/-
  What the kernel body computes at one grid point, entry by entry.

  The body loads a [64, 128, 6] block of probabilities, the [128, 64] block of table weights of the same 128 columns
  and the whole 12 × 64 selection table.  It forms the twelve soft literals of every cell, clips, shifts, takes
  logarithms, flattens the 64 × 128 cells into 8192 rows, multiplies the [8192, 12] matrix of logarithms by the
  table, unflattens, exponentiates, multiplies by the logistic function of the weights (one [128, 64] slab repeated
  over the 64 batch rows) and sums along the table axis.  Row r = p · 128 + q of the flattened matrix is cell (p, q),
  so entry (p, q) of the stored block is the layer's function of row (p, q, ·) of the probabilities, row (q, ·) of
  the weights and the table.
-/
import proofs.«147243_j63780264346273_2_alg».proof.Proof.Gen.KernelIdeal.Skeleton
import proofs.«147243_j63780264346273_2_alg».proof.Proof.LibMatmul
import proofs.«147243_j63780264346273_2_alg».proof.Proof.LibIndex
import proofs.«147243_j63780264346273_2_alg».proof.Proof.LibRank3
import proofs.«147243_j63780264346273_2_alg».proof.Proof.Spec
import Idealize.ShloMosaic.Lib.ValueLayout

noncomputable section

namespace Cert.KernelIdeal.Body

open Cert.KernelIdeal Cert.KernelIdeal.Gen Idealize.ShloMosaic Idealize.ShloMosaic.ValueIdx Cert.SoftLut

/-- The block's joined array 1 − x ++ x at (p, q, k) is soft literal k of cell (p, q). -/
theorem lits_apply (v0 : FVec Ideal S64x128x6 .f32)
    (hc : Shape.Concatenates [S64x128x6, S64x128x6] S64x128x12 2) (p : Fin 64) (q : Fin 128) (k : Fin 12) :
    concatenate S64x128x12 2
        [⟨S64x128x6, subf (broadcast S64x128x6 (Scalar.ofBits (F := Ideal) .f32 0x3F800000#32)) v0⟩, ⟨S64x128x6, v0⟩] hc (ix3 p q k)
      = lits (fun d => v0 (ix3 p q d)) k := by
  unfold lits
  split
  · next h => exact Rank3.concatenate_last_apply_left _ _ hc p q ⟨k.val, h⟩ k rfl
  · next h =>
    exact Rank3.concatenate_last_apply_right _ _ hc p q ⟨k.val - 6, by have := k.isLt; omega⟩ k
      (by show k.val = 6 + (k.val - 6); omega)

/-- Entry (p, q) of the block the body stores. -/
theorem pay_apply (v0 : FVec Ideal S64x128x6 .f32) (v10 : FVec Ideal S12x64 .f32) (v14 : FVec Ideal S128x64 .f32)
    (p : Fin 64) (q : Fin 128) :
    k0_pay1 (F := Ideal) v0 v10 v14 (ix2 p q)
      = entry (fun d => v0 (ix3 p q d)) (fun t => v14 (ix2 q t)) (fun k t => v10 (ix2 k t)) := by
  have hr : p.val * 128 + q.val < 8192 := by have := p.isLt; have := q.isLt; omega
  unfold k0_pay1
  refine (Rank3.laneSum3_apply _ _ _ _ p q).trans ?_
  unfold entry
  refine Finset.sum_congr rfl fun t _ => mul_congr ?_ ?_
  · -- the exponential of row p·128 + q of the product with the table, at column t
    refine congrArg Ideal.exp ?_
    refine (Rank3.shapeCast_split2_apply _ _ (⟨p.val * 128 + q.val, hr⟩ : Fin 8192) p q t rfl).trans ?_
    refine (MatProd.matmul_zero_apply _ _ _ _ _ _).trans ?_
    refine Finset.sum_congr rfl fun k _ => mul_congr ?_ rfl
    refine (Layout.shapeCast_merge3_apply _ _ (⟨p.val * 128 + q.val, hr⟩ : Fin 8192) p q k rfl).trans ?_
    exact congrArg Ideal.log (add_congr (max_congr (lits_apply v0 _ p q k) rfl) rfl)
  · -- the logistic weight: the [128, 64] slab at (q, t), whatever the batch row
    refine (Rank3.broadcastTo_1bc_abc_apply _ _ p q t).trans ?_
    refine (congrFun (shapeCast_self _ _) _).trans ?_
    exact shapeCast_ab_1ab_apply _ _ 0 q t

end Cert.KernelIdeal.Body

end
-- ==== Proof.KernelBlocks.lean ====
/-
  From blocks to the whole array on the kernel's side.

  The grid has 16 × 16 points; point (i, j) reads rows 64·i … 64·i + 63 and columns 128·j … 128·j + 127 of the
  probabilities (all six of the last axis), rows 128·j … 128·j + 127 of the table weights, and the whole selection
  table, which the program writes as a constant before the region; it writes back block (i, j) of the [1024, 2048]
  result.  Entry (p, q) of what a point writes is the layer's function of cell (64·i + p, 128·j + q), so each
  written block is the matching block of the layer's whole output; the 256 blocks tile the result array (the point
  covering cell (b, n) is (b / 64, n / 128)), hence the array ends holding the layer's output.
-/
import proofs.«147243_j63780264346273_2_alg».proof.Proof.Gen.KernelIdeal.Value
import proofs.«147243_j63780264346273_2_alg».proof.Proof.KernelPayload
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
  Idealize.ShloMosaic.ValueIdx Idealize.ShloMosaic.StableHlo
open Idealize.ShloMosaic.Pipeline (Dat)

variable (m : (ℓ : Loc nD τ sig) → Buf (Elt Ideal) ℓ) (ρ : Dev nD → PrngReg)

/-- The selection table the program carries as a constant. -/
def table : FVec Ideal S12x64 .f32 := fun i => FloatOps.ofBits .f32 (lit0 (S12x64.rowMajor i))

/-- The layer's output of the two argument arrays as launched and the program's table. -/
def result (c : Dev nD) : S1024x2048.Idx → EReal :=
  SoftLut.out (m ((c : Thread nD τ).loc main_arg0)) (m ((c : Thread nD τ).loc main_arg1)) table

theorem hz2 : (![0, 0] : Fin 2 → Nat) = fun _ => 0 := funext fun a => by fin_cases a <;> rfl
theorem hz3 : (![0, 0, 0] : Fin 3 → Nat) = fun _ => 0 := funext fun a => by fin_cases a <;> rfl

/-- When the region is entered the table's buffer holds the table: the one host operation before it wrote it. -/
theorem V_table (c : Dev nD) : (V m c main_cst : S12x64.Idx → EReal) = table := by
  dsimp only [Gen.V, Gen.hostOps0]; after_results; rfl

/-- The index maps over the grid: the probabilities' block moves with the output's on both leading axes, the
    weights' block with the output's column block, the table's block stays, and the output's block indices are
    below 16. -/
theorem idx_facts : ∀ t : Fin cfg0.N,
    win0_0.index t (0 : Fin 3) = win0_3.index t (0 : Fin 2) ∧ win0_0.index t (1 : Fin 3) = win0_3.index t (1 : Fin 2)
    ∧ win0_0.index t (2 : Fin 3) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) ≤ 15 :=
  (by decide +kernel : ∀ t : Fin grid0.N, _)

/-- Every block of the result is some point's. -/
theorem idx_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- The probabilities' block at point t, at (p, q, d): the argument at (64·i + p, 128·j + q, d). -/
theorem iblk0_apply (c : Dev nD) (t : Fin cfg0.N) (p : Fin 64) (q : Fin 128) (d : Fin 6) (b : Fin 1024) (n : Fin 2048)
    (hb : b.val = win0_3.index t (0 : Fin 2) * 64 + p.val) (hn : n.val = win0_3.index t (1 : Fin 2) * 128 + q.val) :
    (iblk m c 0 t : FVec Ideal S64x128x6 .f32) (ix3 p q d)
      = (m ((c : Thread nD τ).loc main_arg0) : S1024x2048x6.Idx → EReal) (ix3 b n d) := by
  obtain ⟨e00, e01, e02, -⟩ := idx_facts t
  unfold iblk
  rw [View.read_apply]
  show V m c main_arg0 _ = _
  rw [V_main_arg0 m c]
  congr 1
  funext a; apply Fin.ext
  match a with
  | ⟨0, _⟩ => show win0_0.index t (0 : Fin 3) * 64 + 1 * p.val = b.val; omega
  | ⟨1, _⟩ => show win0_0.index t (1 : Fin 3) * 128 + 1 * q.val = n.val; omega
  | ⟨2, _⟩ => show win0_0.index t (2 : Fin 3) * 6 + 1 * d.val = d.val; omega

/-- The weights' block at point t, at (q, e): the argument at (128·j + q, e). -/
theorem iblk1_apply (c : Dev nD) (t : Fin cfg0.N) (q : Fin 128) (e : Fin 64) (n : Fin 2048)
    (hn : n.val = win0_3.index t (1 : Fin 2) * 128 + q.val) :
    (iblk m c 1 t : FVec Ideal S128x64 .f32) (ix2 q e)
      = (m ((c : Thread nD τ).loc main_arg1) : S2048x64.Idx → EReal) (ix2 n e) := by
  obtain ⟨-, -, -, e10, e11, -⟩ := idx_facts t
  unfold iblk
  rw [View.read_apply]
  show V m c main_arg1 _ = _
  rw [V_main_arg1 m c]
  congr 1
  funext a; apply Fin.ext
  match a with
  | ⟨0, _⟩ => show win0_1.index t (0 : Fin 2) * 128 + 1 * q.val = n.val; omega
  | ⟨1, _⟩ => show win0_1.index t (1 : Fin 2) * 64 + 1 * e.val = e.val; omega

/-- The table's block at any point is the whole table. -/
theorem iblk2_apply (c : Dev nD) (t : Fin cfg0.N) (k : Fin 12) (e : Fin 64) :
    (iblk m c 2 t : FVec Ideal S12x64 .f32) (ix2 k e) = table (ix2 k e) := by
  obtain ⟨-, -, -, -, -, e20, e21, -⟩ := idx_facts t
  unfold iblk
  rw [View.read_apply]
  show V m c main_cst _ = _
  rw [V_table m c]
  congr 1
  funext a; apply Fin.ext
  match a with
  | ⟨0, _⟩ => show win0_2.index t (0 : Fin 2) * 12 + 1 * k.val = k.val; omega
  | ⟨1, _⟩ => show win0_2.index t (1 : Fin 2) * 64 + 1 * e.val = e.val; omega

/-- One stored entry against one cell of the layer's output: when the three loaded blocks read the arguments' rows of
    cell (b, n) and the table, entry (p, q) of the stored block is the layer's output at (b, n). -/
theorem point (X : S1024x2048x6.Idx → EReal) (W : S2048x64.Idx → EReal) (T : S12x64.Idx → EReal)
    (x0 : FVec Ideal S64x128x6 .f32) (x1 : FVec Ideal S128x64 .f32) (x2 : FVec Ideal S12x64 .f32)
    (p : Fin 64) (q : Fin 128) (b : Fin 1024) (n : Fin 2048)
    (h0 : ∀ d : Fin 6, x0 (ix3 p q d) = X (ix3 b n d)) (h1 : ∀ e : Fin 64, x1 (ix2 q e) = W (ix2 n e))
    (h2 : ∀ (k : Fin 12) (e : Fin 64), x2 (ix2 k e) = T (ix2 k e)) :
    k0_pay1 (F := Ideal) x0 x2 x1 (ix2 p q) = SoftLut.out X W T (ix2 b n) := by
  rw [Body.pay_apply, SoftLut.out_apply]
  exact congr (congr (congrArg SoftLut.entry (funext h0)) (funext h1)) (funext fun k => funext (h2 k))

/-- What point t writes back is block t of the layer's output. -/
theorem flushed_eq (c : Dev nD) (t : Fin cfg0.N) :
    (dats m 0 c).flushed 3 t = ((cfg0.win 3).blk t).view.read (Elt Ideal) (result m c) := by
  obtain ⟨-, -, -, -, -, -, -, l0, l1⟩ := idx_facts t
  rw [flushed3]
  unfold out0_3
  rw [View.canon_unit_zero hz2]
  simp only [View.ld_unit_zero (S := S64x128x6) hz3, View.ld_unit_zero (S := S12x64) hz2, View.ld_unit_zero (S := S128x64) hz2]
  funext j
  have hp : (j 0).val < 64 := (j 0).isLt
  have hq : (j 1).val < 128 := (j 1).isLt
  have hb : win0_3.index t (0 : Fin 2) * 64 + (j 0).val < 1024 := by omega
  have hn : win0_3.index t (1 : Fin 2) * 128 + (j 1).val < 2048 := by omega
  have hx : (cfg0.win 3).xinj (grid0.coords t) j = ix2 (⟨(j 0).val, hp⟩ : Fin 64) (⟨(j 1).val, hq⟩ : Fin 128) :=
    funext fun a => Fin.ext (by
      match a with
      | ⟨0, _⟩ => rfl
      | ⟨1, _⟩ => rfl)
  have he : ((cfg0.win 3).blk t).view.emb j
      = ix2 (⟨win0_3.index t (0 : Fin 2) * 64 + (j 0).val, hb⟩ : Fin 1024) (⟨win0_3.index t (1 : Fin 2) * 128 + (j 1).val, hn⟩ : Fin 2048) :=
    funext fun a => Fin.ext (by
      match a with
      | ⟨0, _⟩ => show win0_3.index t (0 : Fin 2) * 64 + 1 * (j 0).val = win0_3.index t (0 : Fin 2) * 64 + (j 0).val; omega
      | ⟨1, _⟩ => show win0_3.index t (1 : Fin 2) * 128 + 1 * (j 1).val = win0_3.index t (1 : Fin 2) * 128 + (j 1).val; omega)
  show k0_pay1 (F := Ideal) (iblk m c 0 t) (iblk m c 2 t) (iblk m c 1 t) ((cfg0.win 3).xinj (grid0.coords t) j)
      = result m c (((cfg0.win 3).blk t).view.emb j)
  rw [hx, he]
  exact point _ _ _ _ _ _ _ _ _ _
    (fun d => iblk0_apply m c t _ _ d _ _ rfl rfl) (fun e => iblk1_apply m c t _ e _ rfl) (fun k e => iblk2_apply m c t k e)

/-- An index of the result array is in point t's block iff each coordinate is in the block's range on its axis. -/
theorem mem_blk (t : Fin cfg0.N) (i : S1024x2048.Idx) :
    i ∈ ((cfg0.win 3).blk t).view.set ↔ ∀ a : Fin 2, win0_3.index t a * S64x128.size a ≤ (i a).val
      ∧ (i a).val < win0_3.index t a * S64x128.size a + S64x128.size a := by
  show i ∈ ((View.whole main_v0).slice (win0_3.rect t)).set ↔ _
  rw [View.set_slice_whole, Rect.mem_set_unit]
  exact Iff.rfl

/-- Every cell of the result is in some point's block: cell (b, n) in the block of point (b / 64, n / 128). -/
theorem cover (i : S1024x2048.Idx) :
    ∃ t : Fin cfg0.N, (cfg0.win 3).flush t = true ∧ i ∈ ((cfg0.win 3).blk t).view.set := by
  have hi0 : (i 0).val < 1024 := (i 0).isLt
  have hi1 : (i 1).val < 2048 := (i 1).isLt
  obtain ⟨t, ht⟩ := idx_onto ⟨(i 0).val / 64, by omega⟩ ⟨(i 1).val / 128, by omega⟩
  have q0 : win0_3.index t (0 : Fin 2) = (i 0).val / 64 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 128 ≤ (i 1).val ∧ (i 1).val < win0_3.index t (1 : Fin 2) * 128 + 128; omega

/-- The result array after the run is the layer's output. -/
theorem final (c : Dev nD) : (dats m 0 c).arrAt 3 cfg0.N = result m c :=
  (dats m 0 c).arrAt_eq_of_cover 3 (result m c) (fun t _ => flushed_eq m c t) cover

/-- Every weakly fair execution of the kernel's program terminates with its result buffer at the layer's output of
    the arguments as launched and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.RefRun.lean ====
/-
  The reference as a straight line of host operations, and what it leaves in its result buffer.

  The reference computes, over whole arrays: the twelve soft literals (1 − x and x joined along the last axis), their
  clipping at zero (an outlined relu: a zero constant, its spread, a maximum), the shift by ε and the logarithm; the
  product of those logarithms with the 12 × 64 selection table (a constant of the program) contracting the literal
  axis; its exponential; the logistic function of the table weights written out as 1 / (1 + e^(−w)); the weights
  repeated over the batch axis; the product of the two and its sum along the table axis from zero.  Here that list is
  written out (the outlined function's three operations in place at its call), the program is shown to be that list
  run in order, and the result buffer after any execution is shown to hold `refOut` of the two argument arrays, the
  arguments left as they were.
-/
import proofs.«147243_j63780264346273_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The selection table the program carries as a constant: entry (k, t) is the float whose word is listed at the
    row-major position of (k, t). -/
def table : FVec F S12x64 .f32 := fun i => FloatOps.ofBits .f32 (lit0 (S12x64.rowMajor i))

/-- The soft literals: 1 − x and x joined along the last axis. -/
def softLits (x : FVec F S1024x2048x6 .f32) : FVec F S1024x2048x12 .f32 :=
  concatenate S1024x2048x12 2
    [⟨S1024x2048x6, subf (broadcastInDim S1024x2048x6 ![] bcast_S_S1024x2048x6 (constant S_ .f32 0x3F800000#32)) x⟩,
     ⟨S1024x2048x6, x⟩] concatenates_S1024x2048x6_S1024x2048x6_S1024x2048x12_d2

/-- The logarithms of the clipped, shifted literals. -/
def logLits (x : FVec F S1024x2048x6 .f32) : FVec F S1024x2048x12 .f32 :=
  Host.log (addf (maximumf (softLits x) (broadcastInDim S1024x2048x12 ![] bcast_S_S1024x2048x12 (constant S_ .f32 0x00000000#32)))
    (broadcastInDim S1024x2048x12 ![] bcast_S_S1024x2048x12 (constant S_ .f32 0x33D6BF95#32)))

/-- The logistic function of the weights as the host spells it: 1 / (1 + e^(−w)). -/
def weights (w : FVec F S2048x64 .f32) : FVec F S2048x64 .f32 :=
  Host.divf (broadcastInDim S2048x64 ![] bcast_S_S2048x64 (constant S_ .f32 0x3F800000#32))
    (addf (broadcastInDim S2048x64 ![] bcast_S_S2048x64 (constant S_ .f32 0x3F800000#32)) (Host.exp (Host.negf w)))

/-- The reference's result as one term of its two arguments. -/
def refOut (x : FVec F S1024x2048x6 .f32) (w : FVec F S2048x64 .f32) : FVec F S1024x2048 .f32 :=
  Host.reduceAdd
    (mulf (Host.exp (Host.dotGeneral dot_S1024x2048x12_S12x64_S1024x2048x64_2_0_01_1_n_n none (logLits x) table))
      (broadcastInDim S1024x2048x64 ![0, 1, 2] bcast_S1x2048x64_S1024x2048x64_0_1_2
        (broadcastInDim S1x2048x64 ![1, 2] bcast_S2048x64_S1x2048x64_1_2 (weights w))))
    (constant S_ .f32 0x00000000#32) reducesTo_S1024x2048x64_S1024x2048_d2 h_S_

/-- The program's 27 host operations, in order (the outlined relu's three in place at its call). -/
abbrev ops : List (HloOp τ sig (Elt F)) :=
  [ nullary main_cst (fun i => FloatOps.ofBits .f32 (lit0 (S12x64.rowMajor i))),
    nullary main_cst_0 (constant S_ .f32 0x3F800000#32),
    unary main_cst_0 main_v0 (broadcastInDim S1024x2048x6 ![] bcast_S_S1024x2048x6 : (⟨S_, .f32⟩ : BufTy).Contents (Elt F) → (⟨S1024x2048x6, .f32⟩ : BufTy).Contents (Elt F)),
    binary main_v0 main_arg0 main_v1 (subf : (⟨S1024x2048x6, .f32⟩ : BufTy).Contents (Elt F) → (⟨S1024x2048x6, .f32⟩ : BufTy).Contents (Elt F) → (⟨S1024x2048x6, .f32⟩ : BufTy).Contents (Elt F)),
    binary main_v1 main_arg0 main_v2 ((fun a b => concatenate S1024x2048x12 2 [⟨S1024x2048x6, a⟩, ⟨S1024x2048x6, b⟩] concatenates_S1024x2048x6_S1024x2048x6_S1024x2048x12_d2) : (⟨S1024x2048x6, .f32⟩ : BufTy).Contents (Elt F) → (⟨S1024x2048x6, .f32⟩ : BufTy).Contents (Elt F) → (⟨S1024x2048x12, .f32⟩ : BufTy).Contents (Elt F)),
    TRef.nullary main_call0.cst (constant S_ .f32 0x00000000#32),
    TRef.unary main_call0.cst main_call0.v0 (broadcastInDim S1024x2048x12 ![] bcast_S_S1024x2048x12),
    TRef.binary (.of main_v2) main_call0.v0 main_call0.v1 maximumf,
    nullary main_cst_1 (constant S_ .f32 0x33D6BF95#32),
    unary main_cst_1 main_v4 (broadcastInDim S1024x2048x12 ![] bcast_S_S1024x2048x12 : (⟨S_, .f32⟩ : BufTy).Contents (Elt F) → (⟨S1024x2048x12, .f32⟩ : BufTy).Contents (Elt F)),
    binary main_v3 main_v4 main_v5 (addf : (⟨S1024x2048x12, .f32⟩ : BufTy).Contents (Elt F) → (⟨S1024x2048x12, .f32⟩ : BufTy).Contents (Elt F) → (⟨S1024x2048x12, .f32⟩ : BufTy).Contents (Elt F)),
    unary main_v5 main_v6 (Host.log : (⟨S1024x2048x12, .f32⟩ : BufTy).Contents (Elt F) → (⟨S1024x2048x12, .f32⟩ : BufTy).Contents (Elt F)),
    binary main_v6 main_cst main_v7 ((fun l r => Host.dotGeneral dot_S1024x2048x12_S12x64_S1024x2048x64_2_0_01_1_n_n none l r) : (⟨S1024x2048x12, .f32⟩ : BufTy).Contents (Elt F) → (⟨S12x64, .f32⟩ : BufTy).Contents (Elt F) → (⟨S1024x2048x64, .f32⟩ : BufTy).Contents (Elt F)),
    unary main_v7 main_v8 (Host.exp : (⟨S1024x2048x64, .f32⟩ : BufTy).Contents (Elt F) → (⟨S1024x2048x64, .f32⟩ : BufTy).Contents (Elt F)),
    unary main_arg1 main_v9 (Host.negf : (⟨S2048x64, .f32⟩ : BufTy).Contents (Elt F) → (⟨S2048x64, .f32⟩ : BufTy).Contents (Elt F)),
    unary main_v9 main_v10 (Host.exp : (⟨S2048x64, .f32⟩ : BufTy).Contents (Elt F) → (⟨S2048x64, .f32⟩ : BufTy).Contents (Elt F)),
    nullary main_cst_2 (constant S_ .f32 0x3F800000#32),
    unary main_cst_2 main_v11 (broadcastInDim S2048x64 ![] bcast_S_S2048x64 : (⟨S_, .f32⟩ : BufTy).Contents (Elt F) → (⟨S2048x64, .f32⟩ : BufTy).Contents (Elt F)),
    binary main_v11 main_v10 main_v12 (addf : (⟨S2048x64, .f32⟩ : BufTy).Contents (Elt F) → (⟨S2048x64, .f32⟩ : BufTy).Contents (Elt F) → (⟨S2048x64, .f32⟩ : BufTy).Contents (Elt F)),
    nullary main_cst_3 (constant S_ .f32 0x3F800000#32),
    unary main_cst_3 main_v13 (broadcastInDim S2048x64 ![] bcast_S_S2048x64 : (⟨S_, .f32⟩ : BufTy).Contents (Elt F) → (⟨S2048x64, .f32⟩ : BufTy).Contents (Elt F)),
    binary main_v13 main_v12 main_v14 (Host.divf : (⟨S2048x64, .f32⟩ : BufTy).Contents (Elt F) → (⟨S2048x64, .f32⟩ : BufTy).Contents (Elt F) → (⟨S2048x64, .f32⟩ : BufTy).Contents (Elt F)),
    unary main_v14 main_v15 (broadcastInDim S1x2048x64 ![1, 2] bcast_S2048x64_S1x2048x64_1_2 : (⟨S2048x64, .f32⟩ : BufTy).Contents (Elt F) → (⟨S1x2048x64, .f32⟩ : BufTy).Contents (Elt F)),
    unary main_v15 main_v16 (broadcastInDim S1024x2048x64 ![0, 1, 2] bcast_S1x2048x64_S1024x2048x64_0_1_2 : (⟨S1x2048x64, .f32⟩ : BufTy).Contents (Elt F) → (⟨S1024x2048x64, .f32⟩ : BufTy).Contents (Elt F)),
    binary main_v8 main_v16 main_v17 (mulf : (⟨S1024x2048x64, .f32⟩ : BufTy).Contents (Elt F) → (⟨S1024x2048x64, .f32⟩ : BufTy).Contents (Elt F) → (⟨S1024x2048x64, .f32⟩ : BufTy).Contents (Elt F)),
    nullary main_cst_4 (constant S_ .f32 0x00000000#32),
    binary main_v17 main_cst_4 main_v18 ((fun x v => Host.reduceAdd x v reducesTo_S1024x2048x64_S1024x2048_d2 h_S_) : (⟨S1024x2048x64, .f32⟩ : BufTy).Contents (Elt F) → (⟨S_, .f32⟩ : BufTy).Contents (Elt F) → (⟨S1024x2048, .f32⟩ : BufTy).Contents (Elt F)) ]

set_option maxRecDepth 1024 in
/-- The program is that list run in order: the outlined function unfolded at its call and the sequencing
    re-associated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub ..⟩

/-- On every device, for any float values, from any memory with zero counters: every weakly fair execution of the
    reference terminates with its result buffer at `refOut` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.RefValue.lean ====
/-
  The reference's result, entry by entry, is the layer's function of its arguments.

  Reading the reference's term at cell (b, n): the sum along the table axis from zero is Σ_t of the product's
  entries; the exponential factor at (b, n, t) is the exponential of the product with the table at (b, n, t), which
  is Σ_k log(max(lit_k, 0) + ε) · T[k, t] with lit_k the k-th entry of 1 − x ++ x at cell (b, n); the weight factor
  is the [2048, 64] array of 1 / (1 + e^(−w)) at (n, t), whatever the batch row, and that quotient is the logistic
  function.
-/
import proofs.«147243_j63780264346273_2_alg».proof.Proof.RefRun
import proofs.«147243_j63780264346273_2_alg».proof.Proof.LibRank3
import proofs.«147243_j63780264346273_2_alg».proof.Proof.Spec
import Idealize.ShloMosaic.Lib.IdealHost

noncomputable section

namespace Cert.ReferenceIdeal.HostValue

open Cert.ReferenceIdeal Cert.ReferenceIdeal.Gen Cert.ReferenceIdeal.HostRun Idealize.ShloMosaic Idealize.ShloMosaic.ValueIdx
  Cert.SoftLut

/-- The joined array 1 − x ++ x at (b, n, k) is soft literal k of cell (b, n). -/
theorem softLits_apply (x : FVec Ideal S1024x2048x6 .f32) (b : Fin 1024) (n : Fin 2048) (k : Fin 12) :
    softLits x (ix3 b n k) = lits (fun d => x (ix3 b n d)) k := by
  unfold softLits lits
  split
  · next h =>
    refine (Rank3.concatenate_last_apply_left _ _ _ b n ⟨k.val, h⟩ k rfl).trans ?_
    exact sub_congr (broadcastInDim_scalar_apply _ _ _) rfl
  · next h =>
    exact Rank3.concatenate_last_apply_right _ _ _ b n ⟨k.val - 6, by have := k.isLt; omega⟩ k
      (by show k.val = 6 + (k.val - 6); omega)

/-- The logarithm of the clipped, shifted literal k of cell (b, n). -/
theorem logLits_apply (x : FVec Ideal S1024x2048x6 .f32) (b : Fin 1024) (n : Fin 2048) (k : Fin 12) :
    logLits x (ix3 b n k)
      = Ideal.log (max (lits (fun d => x (ix3 b n d)) k) (Ideal.ofBits .f32 0x00000000#32) + Ideal.ofBits .f32 0x33D6BF95#32) := by
  unfold logLits
  exact congrArg Ideal.log (add_congr (max_congr (softLits_apply x b n k) (broadcastInDim_scalar_apply _ _ _))
    (broadcastInDim_scalar_apply _ _ _))

/-- The host's 1 / (1 + e^(−w)) is the logistic function of w, entry by entry. -/
theorem weights_apply (w : FVec Ideal S2048x64 .f32) (i : S2048x64.Idx) : weights w i = Ideal.logistic (w i) := by
  unfold weights
  refine Eq.trans ?_ (host_logistic (w i))
  exact congrArg₂ Ideal.div (broadcastInDim_scalar_apply _ _ _) (add_congr (broadcastInDim_scalar_apply _ _ _) rfl)

/-- The reference's result at cell (b, n). -/
theorem refOut_apply (x : FVec Ideal S1024x2048x6 .f32) (w : FVec Ideal S2048x64 .f32) (b : Fin 1024) (n : Fin 2048) :
    refOut (F := Ideal) x w (ix2 b n)
      = entry (fun d => x (ix3 b n d)) (fun t => w (ix2 n t)) (fun k t => table (F := Ideal) (ix2 k t)) := by
  unfold refOut
  refine (Rank3.hostLaneSum3_apply _ _ _ _ (by decide) b n).trans ((zero_word_add _).trans ?_)
  unfold entry
  refine Finset.sum_congr rfl fun t _ => mul_congr ?_ ?_
  · refine congrArg Ideal.exp ?_
    refine (Rank3.dotGeneral_rows_apply _ _ _ _ b n t).trans ?_
    exact Finset.sum_congr rfl fun k _ => mul_congr (logLits_apply x b n k) rfl
  · refine (Rank3.broadcastInDim_1bc_abc_apply _ _ b n t).trans ?_
    refine (Rank3.broadcastInDim_bc_1bc_apply _ _ 0 n t).trans ?_
    exact weights_apply w _

/-- The reference's result is the layer's function of the arguments and the program's table. -/
theorem refOut_eq (x : FVec Ideal S1024x2048x6 .f32) (w : FVec Ideal S2048x64 .f32) :
    refOut (F := Ideal) x w = SoftLut.out x w (table (F := Ideal)) := by
  funext i
  obtain ⟨b, n, rfl⟩ : ∃ (b : Fin 1024) (n : Fin 2048), i = ix2 b n := ⟨i 0, i 1, eq_ix2 i⟩
  rw [refOut_apply, out_apply]

end Cert.ReferenceIdeal.HostValue

end
-- ==== Proof.lean ====
/-
  The soft look-up-table layer: the Pallas kernel against its jnp reference, over the extended reals.

  Both programs compute, for every cell (b, n) of a [1024, 2048] grid,

      out[b, n] = Σ_t exp( Σ_k log( max(lit_k, 0) + ε ) · T[k, t] ) · logistic( lut[n, t] ),

  where lit_0 … lit_11 are 1 − x_0, …, 1 − x_5, x_0, …, x_5 for the cell's six probabilities x = inputs[b, n, ·], T is a
  fixed 12 × 64 table of zeros and ones that both programs carry as the same constant, t runs over its 64 columns and k
  over its 12 rows (Proof/Spec.lean).

  The kernel tiles the cells into 16 × 16 blocks of 64 × 128; at a grid point it flattens the block's cells into 8192
  rows, multiplies their logarithms by the table on the matrix unit, unflattens, and sums along the table axis; the
  logistic function is one kernel operation.  Entry (p, q) of the block a point stores is the formula at the
  point's cell (64·i + p, 128·j + q) (Proof/KernelPayload.lean), the blocks tile the result (Proof/KernelBlocks.lean),
  so the kernel's result array is the formula of its arguments.  The reference applies the same steps to whole arrays,
  with the logistic function written out as 1 / (1 + e^(−w)) — the same function on every extended real — and its
  result, read entry by entry, is the same formula (Proof/RefRun.lean, Proof/RefValue.lean).  The two sides differ
  only in how they lay the data out and in the spelling of finite sums over the 12 literals and the 64 table
  columns; no law of arithmetic that could fail at an infinity is used, so the precondition that the inputs are
  finite is never opened.

  The kernel's idealization rewrote nothing, so it preserves the kernel trivially; the two kernels' frames are the
  generated ones, and the reference's frame is its run with the result forgotten.
-/
import proofs.«147243_j63780264346273_2_alg».proof.Defs
import proofs.«147243_j63780264346273_2_alg».proof.Proof.Gen.Kernel
import proofs.«147243_j63780264346273_2_alg».proof.Proof.Gen.Kernel.Frame
import proofs.«147243_j63780264346273_2_alg».proof.Proof.Gen.KernelIdeal
import proofs.«147243_j63780264346273_2_alg».proof.Proof.Gen.KernelIdeal.Frame
import proofs.«147243_j63780264346273_2_alg».proof.Proof.Gen.ReferenceIdeal
import proofs.«147243_j63780264346273_2_alg».proof.Proof.Gen.Pre_finite_inputs
import proofs.«147243_j63780264346273_2_alg».proof.Proof.KernelBlocks
import proofs.«147243_j63780264346273_2_alg».proof.Proof.RefValue
import Idealize.ShloMosaic.Adequacy
import Idealize.ShloMosaic.Init

noncomputable section

namespace Cert.Proof

open Idealize.ShloMosaic Idealize.SL.Sem

/-- The two programs list the same 768 words for the selection table. -/
theorem lit_eq : ∀ i : Fin 768, Cert.KernelIdeal.lit0 i = Cert.ReferenceIdeal.lit0 i := by decide +kernel

/-- So they carry the same table. -/
theorem table_eq : Cert.KernelIdeal.Blocks.table = Cert.ReferenceIdeal.HostRun.table (F := Ideal) :=
  funext fun i => congrArg (FloatOps.ofBits (F := Ideal) .f32) (lit_eq _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on the arguments both programs end with the layer's output of those arguments in their
    result buffers: the kernel by its blocks, the reference by its term read entry by entry, over one table. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.HostRun.run (F := Ideal) m' ρ')
  refine (Cert.ReferenceIdeal.HostValue.refOut_eq _ _).trans ?_
  rw [(hagree c).1, (hagree c).2, ← table_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
